-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x64, .f32⟩
  | .hbm, ⟨56, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result named.

  The program is four stretches in a row: host operations, the first dense step (a pipeline over 50 row tiles), host
  operations, the second dense step. Its frame run carries, through every stretch, the contents of every buffer that is
  not a pipeline's own staging space: a host stretch rewrites them by its operations' fold, a pipeline replaces its
  arrays by what its write-backs leave. At the end every such buffer holds the last boundary's contents, so the same
  launch that shows the argument arrays unchanged also says what the result buffer holds: the last boundary's contents
  there. The launch below is the frame's launch with that one conjunct added to what is read off the final state.
-/
import proofs.«182171_j33148557591078_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the whole program, with the result array named: every weakly fair execution ends, nothing faulting,
    with the result buffer at what the last boundary's contents hold there and every argument array as launched. -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.Spec.lean ====
/-
  The combine step of a mean-aggregating graph layer, entry by entry on the extended reals.

  A layer takes the per-node mean `M` of the neighbours' features and the node's own features `X`, both
  `[100000, 128]`, two weight matrices `Wl`, `Wr` of shape `[128, O]` and a bias row `b` of shape `[1, O]`, and returns

      out(r, j) = Σ_k M(r, k) · Wl(k, j)  +  Σ_k X(r, k) · Wr(k, j)  +  b(0, j),

  the two products added first and the bias last. The hidden layer (`O = 128`) clamps that entry below at the
  zero word, the output layer (`O = 64`) returns it as it is. Nothing here is specific to how the entry is
  computed: a row tile of a blocked product and the whole product have this entry alike, because row `r` of a
  product reads row `r` of its left operand only.
-/
import Idealize.ShloMosaic.PureOps.Ideal
import Idealize.ShloMosaic.Lib.ValueIdx

open scoped BigOperators

noncomputable section

namespace Cert.Sage

open Idealize.ShloMosaic Idealize.ShloMosaic.ValueIdx

/-- Entry `(r, j)` of `M·Wl + X·Wr + b`: the sums over the 128 shared coordinates, the bias row's entry `j` added last. -/
def combineAt {O : Nat} (M X : (⟨2, ![100000, 128]⟩ : Shape).Idx → EReal)
    (Wl Wr : (⟨2, ![128, O]⟩ : Shape).Idx → EReal) (b : (⟨2, ![1, O]⟩ : Shape).Idx → EReal)
    (r : Fin 100000) (j : Fin O) : EReal :=
  (∑ k : Fin 128, M (ix2 r k) * Wl (ix2 k j)) + (∑ k : Fin 128, X (ix2 r k) * Wr (ix2 k j)) + b (ix2 (0 : Fin 1) j)

/-- The hidden layer: the combined entry, clamped below at the zero word. -/
def hidden (M X : (⟨2, ![100000, 128]⟩ : Shape).Idx → EReal)
    (Wl Wr : (⟨2, ![128, 128]⟩ : Shape).Idx → EReal) (b : (⟨2, ![1, 128]⟩ : Shape).Idx → EReal) :
    (⟨2, ![100000, 128]⟩ : Shape).Idx → EReal :=
  fun i => max (combineAt M X Wl Wr b (i 0) (i 1)) (Ideal.ofBits .f32 0x00000000#32)

/-- The output layer: the combined entry. -/
def output (M X : (⟨2, ![100000, 128]⟩ : Shape).Idx → EReal)
    (Wl Wr : (⟨2, ![128, 64]⟩ : Shape).Idx → EReal) (b : (⟨2, ![1, 64]⟩ : Shape).Idx → EReal) :
    (⟨2, ![100000, 64]⟩ : Shape).Idx → EReal :=
  fun i => combineAt M X Wl Wr b (i 0) (i 1)

/-- A vector `[O]` laid out as the single row of a `[1, O]` array. -/
def rowOf {O : Nat} (b : (⟨1, ![O]⟩ : Shape).Idx → EReal) : (⟨2, ![1, O]⟩ : Shape).Idx → EReal :=
  fun i => b (ix1 (i 1))

theorem rowOf_apply {O : Nat} (b : (⟨1, ![O]⟩ : Shape).Idx → EReal) (z : Fin 1) (j : Fin O) :
    rowOf b (ix2 z j) = b (ix1 j) := rfl

theorem hidden_apply (M X : (⟨2, ![100000, 128]⟩ : Shape).Idx → EReal)
    (Wl Wr : (⟨2, ![128, 128]⟩ : Shape).Idx → EReal) (b : (⟨2, ![1, 128]⟩ : Shape).Idx → EReal)
    (r : Fin 100000) (j : Fin 128) :
    hidden M X Wl Wr b (ix2 r j) = max (combineAt M X Wl Wr b r j) (Ideal.ofBits .f32 0x00000000#32) := rfl

theorem output_apply (M X : (⟨2, ![100000, 128]⟩ : Shape).Idx → EReal)
    (Wl Wr : (⟨2, ![128, 64]⟩ : Shape).Idx → EReal) (b : (⟨2, ![1, 64]⟩ : Shape).Idx → EReal)
    (r : Fin 100000) (j : Fin 64) :
    output M X Wl Wr b (ix2 r j) = combineAt M X Wl Wr b r j := rfl

end Cert.Sage

end
-- ==== Proof.KernelHost.lean ====
/-
  The host operations around the kernel program's two dense steps, as functions.

  Before the first dense step the program splits the edge list into its source and target rows, counts each node's
  incoming edges (at least one), and forms the mean of the neighbours' feature rows; between the two steps it forms the
  same mean of the hidden rows, with the same edges and the same divisors. Each of these is named here as one function
  of its operands, and the contents the program's buffers hold at the two pipeline entries are read off the
  operations' fold as those functions of the launch contents (before the first step) and of the contents the first
  pipeline leaves (before the second).
-/
import proofs.«182171_j33148557591078_1_alg».proof.Proof.Gen.KernelIdeal.Frame
import Idealize.ShloMosaic.Lib.StableHlo.Run

set_option maxRecDepth 16384

noncomputable section

namespace Cert.KernelIdeal.HostChain

open Cert.KernelIdeal Cert.KernelIdeal.Facts₀
open Idealize.ShloMosaic Idealize.ShloMosaic.TcCoe Idealize.SL.Sem Idealize.ShloMosaic.StableHlo

variable {F : FTy → Type} [FloatOps F]

/-- The edge list's first row: the source node of every edge. -/
def srcOf (ei : IVec S2x1600000 32) : IVec S1600000 32 :=
  shapeCast _ (extractStridedSlice S1x1600000 ![0, 0] ei slices_S2x1600000_S1x1600000_0_0) shapeCasts_S1x1600000_S1600000

/-- The edge list's second row: the target node of every edge. -/
def dstOf (ei : IVec S2x1600000 32) : IVec S1600000 32 :=
  shapeCast _ (extractStridedSlice S1x1600000 ![1, 0] ei slices_S2x1600000_S1x1600000_1_0) shapeCasts_S1x1600000_S1600000

/-- A node's divisor: the number of edges that end at it (a one added into it per such edge), and at least one. -/
def degOf (dst : IVec S1600000 32) : FVec F S100000 .f32 :=
  maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))

/-- The mean over a node's incoming edges of the source nodes' feature rows: the rows gathered per edge (a negative
    source index counted from the end), added into the target's row, and the row divided by the node's divisor. -/
def meanOf (feat : FVec F S100000x128 .f32) (src dst : IVec S1600000 32) (deg : FVec F S100000 .f32) : FVec F S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 feat (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 deg))

variable (m : (ℓ : Loc nD τ sig) → Buf (Elt F) ℓ) (ρ : Dev nD → PrngReg)

/-! ## The first pipeline's entry contents -/

theorem entry0_src (c : Dev nD) : Gen.W1 m ρ c (Proc.devRef .tc main_v1) = srcOf (m ((c.tc : Thread nD τ).loc main_arg1)) := by
  show StableHlo.after Gen.hostOps0 (Gen.W0 m ρ c) (Proc.devRef .tc main_v1) = _
  after_results_simp <;> rfl

theorem entry0_dst (c : Dev nD) : Gen.W1 m ρ c (Proc.devRef .tc main_v3) = dstOf (m ((c.tc : Thread nD τ).loc main_arg1)) := by
  show StableHlo.after Gen.hostOps0 (Gen.W0 m ρ c) (Proc.devRef .tc main_v3) = _
  after_results_simp <;> rfl

theorem entry0_deg (c : Dev nD) : Gen.W1 m ρ c (Proc.devRef .tc main_v9) = degOf (F := F) (dstOf (m ((c.tc : Thread nD τ).loc main_arg1))) := by
  show StableHlo.after Gen.hostOps0 (Gen.W0 m ρ c) (Proc.devRef .tc main_v9) = _
  after_results_simp <;> rfl

theorem entry0_mean (c : Dev nD) : Gen.W1 m ρ c (Proc.devRef .tc main_v22)
    = meanOf (m ((c.tc : Thread nD τ).loc main_arg0)) (srcOf (m ((c.tc : Thread nD τ).loc main_arg1))) (dstOf (m ((c.tc : Thread nD τ).loc main_arg1)))
        (degOf (dstOf (m ((c.tc : Thread nD τ).loc main_arg1)))) := by
  show StableHlo.after Gen.hostOps0 (Gen.W0 m ρ c) (Proc.devRef .tc main_v22) = _
  after_results_simp <;> rfl

theorem entry0_bias (c : Dev nD) : Gen.W1 m ρ c (Proc.devRef .tc main_v23)
    = shapeCast S1x128 (m ((c.tc : Thread nD τ).loc main_arg4)) shapeCasts_S128_S1x128 := by
  show StableHlo.after Gen.hostOps0 (Gen.W0 m ρ c) (Proc.devRef .tc main_v23) = _
  after_results_simp <;> rfl

theorem entry0_arg0 (c : Dev nD) : Gen.W1 m ρ c (Proc.devRef .tc main_arg0) = m ((c.tc : Thread nD τ).loc main_arg0) := by
  show StableHlo.after Gen.hostOps0 (Gen.W0 m ρ c) (Proc.devRef .tc main_arg0) = _
  after_results_simp <;> rfl

theorem entry0_arg2 (c : Dev nD) : Gen.W1 m ρ c (Proc.devRef .tc main_arg2) = m ((c.tc : Thread nD τ).loc main_arg2) := by
  show StableHlo.after Gen.hostOps0 (Gen.W0 m ρ c) (Proc.devRef .tc main_arg2) = _
  after_results_simp <;> rfl

theorem entry0_arg3 (c : Dev nD) : Gen.W1 m ρ c (Proc.devRef .tc main_arg3) = m ((c.tc : Thread nD τ).loc main_arg3) := by
  show StableHlo.after Gen.hostOps0 (Gen.W0 m ρ c) (Proc.devRef .tc main_arg3) = _
  after_results_simp <;> rfl

theorem entry0_arg1 (c : Dev nD) : Gen.W1 m ρ c (Proc.devRef .tc main_arg1) = m ((c.tc : Thread nD τ).loc main_arg1) := by
  show StableHlo.after Gen.hostOps0 (Gen.W0 m ρ c) (Proc.devRef .tc main_arg1) = _
  after_results_simp <;> rfl

theorem entry0_arg5 (c : Dev nD) : Gen.W1 m ρ c (Proc.devRef .tc main_arg5) = m ((c.tc : Thread nD τ).loc main_arg5) := by
  show StableHlo.after Gen.hostOps0 (Gen.W0 m ρ c) (Proc.devRef .tc main_arg5) = _
  after_results_simp <;> rfl

theorem entry0_arg6 (c : Dev nD) : Gen.W1 m ρ c (Proc.devRef .tc main_arg6) = m ((c.tc : Thread nD τ).loc main_arg6) := by
  show StableHlo.after Gen.hostOps0 (Gen.W0 m ρ c) (Proc.devRef .tc main_arg6) = _
  after_results_simp <;> rfl

theorem entry0_arg7 (c : Dev nD) : Gen.W1 m ρ c (Proc.devRef .tc main_arg7) = m ((c.tc : Thread nD τ).loc main_arg7) := by
  show StableHlo.after Gen.hostOps0 (Gen.W0 m ρ c) (Proc.devRef .tc main_arg7) = _
  after_results_simp <;> rfl

/-! ## Through the first pipeline: a buffer that is none of its arrays keeps its contents -/

theorem mid_src (c : Dev nD) : Gen.W2 m ρ c (Proc.devRef .tc main_v1) = srcOf (m ((c.tc : Thread nD τ).loc main_arg1)) :=
  (Gen.W2_of_ne m ρ c main_v1 (by decide)).trans (entry0_src m ρ c)

theorem mid_dst (c : Dev nD) : Gen.W2 m ρ c (Proc.devRef .tc main_v3) = dstOf (m ((c.tc : Thread nD τ).loc main_arg1)) :=
  (Gen.W2_of_ne m ρ c main_v3 (by decide)).trans (entry0_dst m ρ c)

theorem mid_deg (c : Dev nD) : Gen.W2 m ρ c (Proc.devRef .tc main_v9) = degOf (F := F) (dstOf (m ((c.tc : Thread nD τ).loc main_arg1))) :=
  (Gen.W2_of_ne m ρ c main_v9 (by decide)).trans (entry0_deg m ρ c)

theorem mid_arg5 (c : Dev nD) : Gen.W2 m ρ c (Proc.devRef .tc main_arg5) = m ((c.tc : Thread nD τ).loc main_arg5) :=
  (Gen.W2_of_ne m ρ c main_arg5 (by decide)).trans (entry0_arg5 m ρ c)

theorem mid_arg6 (c : Dev nD) : Gen.W2 m ρ c (Proc.devRef .tc main_arg6) = m ((c.tc : Thread nD τ).loc main_arg6) :=
  (Gen.W2_of_ne m ρ c main_arg6 (by decide)).trans (entry0_arg6 m ρ c)

theorem mid_arg7 (c : Dev nD) : Gen.W2 m ρ c (Proc.devRef .tc main_arg7) = m ((c.tc : Thread nD τ).loc main_arg7) :=
  (Gen.W2_of_ne m ρ c main_arg7 (by decide)).trans (entry0_arg7 m ρ c)

/-! ## The second pipeline's entry contents, from what the first pipeline leaves -/

theorem entry1_mean (c : Dev nD) : Gen.W3 m ρ c (Proc.devRef .tc main_v37)
    = meanOf (Gen.W2 m ρ c (Proc.devRef .tc main_v24)) (Gen.W2 m ρ c (Proc.devRef .tc main_v1)) (Gen.W2 m ρ c (Proc.devRef .tc main_v3))
        (Gen.W2 m ρ c (Proc.devRef .tc main_v9)) := by
  show StableHlo.after Gen.hostOps1 (Gen.W2 m ρ c) (Proc.devRef .tc main_v37) = _
  after_results_simp <;> rfl

theorem entry1_hidden (c : Dev nD) : Gen.W3 m ρ c (Proc.devRef .tc main_v24) = Gen.W2 m ρ c (Proc.devRef .tc main_v24) := by
  show StableHlo.after Gen.hostOps1 (Gen.W2 m ρ c) (Proc.devRef .tc main_v24) = _
  after_results_simp <;> rfl

theorem entry1_bias (c : Dev nD) : Gen.W3 m ρ c (Proc.devRef .tc main_v38)
    = shapeCast S1x64 (Gen.W2 m ρ c (Proc.devRef .tc main_arg7)) shapeCasts_S64_S1x64 := by
  show StableHlo.after Gen.hostOps1 (Gen.W2 m ρ c) (Proc.devRef .tc main_v38) = _
  after_results_simp <;> rfl

theorem entry1_arg5 (c : Dev nD) : Gen.W3 m ρ c (Proc.devRef .tc main_arg5) = Gen.W2 m ρ c (Proc.devRef .tc main_arg5) := by
  show StableHlo.after Gen.hostOps1 (Gen.W2 m ρ c) (Proc.devRef .tc main_arg5) = _
  after_results_simp <;> rfl

theorem entry1_arg6 (c : Dev nD) : Gen.W3 m ρ c (Proc.devRef .tc main_arg6) = Gen.W2 m ρ c (Proc.devRef .tc main_arg6) := by
  show StableHlo.after Gen.hostOps1 (Gen.W2 m ρ c) (Proc.devRef .tc main_arg6) = _
  after_results_simp <;> rfl

end Cert.KernelIdeal.HostChain

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.RegionPayload.lean ====
/-
  The two layers' stored values, entry by entry.

  Each layer's body stores one value per row tile: the tile of aggregated features and the tile of the nodes' own
  features are narrowed to bf16 (the identity on extended reals), each multiplied on the matrix unit with its
  weight matrix into a zero accumulator, the two products added, the bias row repeated down the tile's 2000 rows
  and added, and, in the hidden layer, the maximum taken with the zero word. At an entry `(p, q)` of the tile
  each product is the sum over the 128 shared coordinates, and the repeated bias row has the row's entry `q`.
-/
import proofs.«182171_j33148557591078_1_alg».proof.Proof.Gen.KernelIdeal.Skeleton
import proofs.«182171_j33148557591078_1_alg».proof.Proof.LibMatmul
import Idealize.ShloMosaic.PureOps.Ideal
import Idealize.ShloMosaic.Lib.ValueLayout

open scoped BigOperators

noncomputable section

namespace Cert.KernelIdeal.RegionValue

open Cert.KernelIdeal Idealize.ShloMosaic Idealize.ShloMosaic.ValueIdx

/-- The hidden layer's stored tile at `(p, q)`: the two sums over the shared coordinate, the bias row's entry `q`
    added last, clamped below at the zero word. -/
theorem pay0_apply (x0 x1 : Vec Ideal S2000x128 .f32) (x2 x3 : Vec Ideal S128x128 .f32) (x4 : Vec Ideal S1x128 .f32) (p : Fin 2000) (q : Fin 128) :
    Gen.k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q)) (Ideal.ofBits .f32 0x00000000#32) := by
  unfold Gen.k0_pay1
  simp only [shapeCast_self]
  rw [maximumf_apply, addf_apply, addf_apply, broadcast_apply, broadcastTo_1b_ab_apply]
  refine congrArg₂ max (congrArg₂ (· + ·) (congrArg₂ (· + ·) ?_ ?_) rfl) rfl
  · exact Cert.MatOps.matmul_plain_zero_apply none (truncf .bf16 x0 Facts₀.bitsLt_bf16_f32) (truncf .bf16 x2 Facts₀.bitsLt_bf16_f32) p q
  · exact Cert.MatOps.matmul_plain_zero_apply none (truncf .bf16 x1 Facts₀.bitsLt_bf16_f32) (truncf .bf16 x3 Facts₀.bitsLt_bf16_f32) p q

/-- The output layer's stored tile at `(p, q)`: the two sums over the shared coordinate, the bias row's entry `q`
    added last. -/
theorem pay1_apply (x0 x1 : Vec Ideal S2000x128 .f32) (x2 x3 : Vec Ideal S128x64 .f32) (x4 : Vec Ideal S1x64 .f32) (p : Fin 2000) (q : Fin 64) :
    Gen.k1_pay1 (F := Ideal) x0 x1 x2 x3 x4 (ix2 p q)
      = (∑ k : Fin 128, x0 (ix2 p k) * x2 (ix2 k q)) + (∑ k : Fin 128, x1 (ix2 p k) * x3 (ix2 k q)) + x4 (ix2 (0 : Fin 1) q) := by
  unfold Gen.k1_pay1
  simp only [shapeCast_self]
  rw [addf_apply, addf_apply, broadcastTo_1b_ab_apply]
  refine congrArg₂ (· + ·) (congrArg₂ (· + ·) ?_ ?_) rfl
  · exact Cert.MatOps.matmul_plain_zero_apply none (truncf .bf16 x0 Facts₀.bitsLt_bf16_f32) (truncf .bf16 x2 Facts₀.bitsLt_bf16_f32) p q
  · exact Cert.MatOps.matmul_plain_zero_apply none (truncf .bf16 x1 Facts₀.bitsLt_bf16_f32) (truncf .bf16 x3 Facts₀.bitsLt_bf16_f32) p q

end Cert.KernelIdeal.RegionValue

end
-- ==== Proof.RegionValue0.lean ====
/-
  The hidden layer's array after its row-tiled pass, for any contents the pass starts from.

  The pass visits 50 row tiles of 2000 rows. At tile `t` it reads rows `2000 t … 2000 t + 1999` of the two
  feature arrays, the two weight matrices and the bias row whole, and writes rows `2000 t … 2000 t + 1999` of the
  result. Entry `(p, q)` of what a tile writes is the two sums over the 128 shared coordinates of row `p` of the
  tile's feature rows against column `q` of the weights, the bias row's entry `q` added last and the sum clamped below
  at the zero word: entry `(2000 t + p, q)` of the layer's result, since row `r` of a product reads row `r` of its left
  operand only. Every row lies in the tile `r / 2000`, so the result array ends holding the layer's result everywhere.
-/
import proofs.«182171_j33148557591078_1_alg».proof.Proof.Gen.KernelIdeal.Frame
import proofs.«182171_j33148557591078_1_alg».proof.Proof.Spec
import proofs.«182171_j33148557591078_1_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offsets, however spelt. -/
theorem zero_off0 : (![0, 0] : Fin 2 → Nat) = fun _ => 0 := funext fun a => by fin_cases a <;> rfl

/-- Where each window's block sits at tile `t`: the row-tiled windows at block row `t`, the weights and the bias row at
    their one block (decided over the 50 tiles). -/
theorem tile_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The aggregated features' block at tile `t` is rows `2000 t …` of the array. -/
theorem mean_block0 (c : Dev nD) (t : Fin cfg0.N) (p : Fin 2000) (k : Fin 128) (r : Fin 100000)
    (hr : r.val = t.val * 2000 + p.val) :
    (iblk0 V c 0 t : Vec Ideal S2000x128 .f32) (ix2 p k) = (V c main_v22 : S100000x128.Idx → EReal) (ix2 r k) := by
  obtain ⟨e0, e1, -⟩ := tile_index0 t
  unfold iblk0
  rw [View.read_apply]
  show V c main_v22 _ = V c main_v22 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The nodes' own features' block at tile `t` is rows `2000 t …` of the array. -/
theorem self_block0 (c : Dev nD) (t : Fin cfg0.N) (p : Fin 2000) (k : Fin 128) (r : Fin 100000)
    (hr : r.val = t.val * 2000 + p.val) :
    (iblk0 V c 1 t : Vec Ideal S2000x128 .f32) (ix2 p k) = (V c main_arg0 : S100000x128.Idx → EReal) (ix2 r k) := by
  obtain ⟨-, -, e0, e1, -⟩ := tile_index0 t
  unfold iblk0
  rw [View.read_apply]
  show V c main_arg0 _ = V c main_arg0 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The first weight matrix's block is the matrix, at every tile. -/
theorem wl_block0 (c : Dev nD) (t : Fin cfg0.N) (y : S128x128.Idx) :
    (iblk0 V c 2 t : Vec Ideal S128x128 .f32) y = (V c main_arg2 : S128x128.Idx → EReal) y := by
  obtain ⟨-, -, -, -, e0, e1, -⟩ := tile_index0 t
  unfold iblk0
  rw [View.read_apply]
  show V c main_arg2 _ = V c main_arg2 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The second weight matrix's block is the matrix, at every tile. -/
theorem wr_block0 (c : Dev nD) (t : Fin cfg0.N) (y : S128x128.Idx) :
    (iblk0 V c 3 t : Vec Ideal S128x128 .f32) y = (V c main_arg3 : S128x128.Idx → EReal) y := by
  obtain ⟨-, -, -, -, -, -, e0, e1, -⟩ := tile_index0 t
  unfold iblk0
  rw [View.read_apply]
  show V c main_arg3 _ = V c main_arg3 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row's block is the row, at every tile. -/
theorem bias_block0 (c : Dev nD) (t : Fin cfg0.N) (y : S1x128.Idx) :
    (iblk0 V c 4 t : Vec Ideal S1x128 .f32) y = (V c main_v23 : S1x128.Idx → EReal) y := by
  obtain ⟨-, -, -, -, -, -, -, -, e0, e1, -⟩ := tile_index0 t
  unfold iblk0
  rw [View.read_apply]
  show V c main_v23 _ = V c main_v23 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- Entry `(p, q)` of what tile `t` computes is entry `(2000 t + p, q)` of the layer's result. -/
theorem tile0_value (c : Dev nD) (t : Fin cfg0.N) (p : Fin 2000) (q : Fin 128) (r : Fin 100000)
    (hr : r.val = t.val * 2000 + p.val) :
    k0_pay1 (iblk0 V c 0 t) (iblk0 V c 1 t) (iblk0 V c 2 t) (iblk0 V c 3 t) (iblk0 V c 4 t) (ix2 p q)
      = Cert.Sage.hidden (V c main_v22) (V c main_arg0) (V c main_arg2) (V c main_arg3) (V c main_v23) (ix2 r q) := by
  refine (pay0_apply (iblk0 V c 0 t) (iblk0 V c 1 t) (iblk0 V c 2 t) (iblk0 V c 3 t) (iblk0 V c 4 t) p q).trans ?_
  refine Eq.trans ?_ (Cert.Sage.hidden_apply _ _ _ _ _ r q).symm
  unfold Cert.Sage.combineAt
  refine congrArg₂ max (congrArg₂ (· + ·) (congrArg₂ (· + ·)
    (Finset.sum_congr rfl fun k _ => ?_) (Finset.sum_congr rfl fun k _ => ?_)) ?_) rfl
  · exact congrArg₂ (· * ·) (mean_block0 V c t p k r hr) (wl_block0 V c t (ix2 k q))
  · exact congrArg₂ (· * ·) (self_block0 V c t p k r hr) (wr_block0 V c t (ix2 k q))
  · exact bias_block0 V c t (ix2 0 q)

/-- What tile `t` writes back is block `t` of the layer's result. -/
theorem written0 (c : Dev nD) (t : Fin cfg0.N) :
    (dat0 V c).flushed 5 t = ((cfg0.win 5).blk t).view.read (Elt Ideal)
      (Cert.Sage.hidden (V c main_v22) (V c main_arg0) (V c main_arg2) (V c main_arg3) (V c main_v23)) := by
  show (cfg0.win 5).cut (grid0.coords t) ((dat0 V c).after 5 t) = _
  rw [after0_5]
  unfold out0_5
  rw [View.canon_unit_zero zero_off0]
  simp only [View.ld_unit_zero (S := S2000x128) zero_off0, View.ld_unit_zero (S := S128x128) zero_off0,
    View.ld_unit_zero (S := S1x128) zero_off0]
  obtain ⟨-, -, -, -, -, -, -, -, -, -, e0, e1⟩ := tile_index0 t
  funext j
  have hj0 : (j 0).val < 2000 := (j 0).isLt
  have hj1 : (j 1).val < 128 := (j 1).isLt
  have hN : cfg0.N = 50 := N_0
  have ht : t.val < cfg0.N := t.isLt
  have hx : (cfg0.win 5).xinj (grid0.coords t) j = ix2 (⟨(j 0).val, hj0⟩ : Fin 2000) (⟨(j 1).val, hj1⟩ : Fin 128) :=
    funext fun a => by match a with | ⟨0, _⟩ => rfl | ⟨1, _⟩ => rfl
  have hemb : ((cfg0.win 5).blk t).view.emb j
      = ix2 (⟨t.val * 2000 + (j 0).val, by omega⟩ : Fin 100000) (⟨(j 1).val, hj1⟩ : Fin 128) := by
    funext a
    apply Fin.ext
    match a with
    | ⟨0, _⟩ => show win0_5.index t (0 : Fin 2) * 2000 + 1 * (j 0).val = t.val * 2000 + (j 0).val; rw [e0]; omega
    | ⟨1, _⟩ => show win0_5.index t (1 : Fin 2) * 128 + 1 * (j 1).val = (j 1).val; rw [e1]; omega
  show k0_pay1 (iblk0 V c 0 t) (iblk0 V c 1 t) (iblk0 V c 2 t) (iblk0 V c 3 t) (iblk0 V c 4 t)
      ((cfg0.win 5).xinj (grid0.coords t) j)
    = Cert.Sage.hidden (V c main_v22) (V c main_arg0) (V c main_arg2) (V c main_arg3) (V c main_v23)
      (((cfg0.win 5).blk t).view.emb j)
  rw [hx, hemb]
  exact tile0_value V c t _ _ _ rfl

/-- An index of the result array is in tile `t`'s block iff each coordinate is in the block's range on its axis. -/
theorem mem_tile0 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v24).slice (win0_5.rect t)).set ↔ _
  rw [View.set_slice_whole, Rect.mem_set_unit]
  exact Iff.rfl

/-- Every index of the result array is in the block of the tile its row falls in, and that tile writes back. -/
theorem covered0 (i : S100000x128.Idx) :
    ∃ t : Fin cfg0.N, (cfg0.win 5).flush t = true ∧ i ∈ ((cfg0.win 5).blk t).view.set := by
  have hN : cfg0.N = 50 := N_0
  have hi0 : (i 0).val < 100000 := (i 0).isLt
  have hi1 : (i 1).val < 128 := (i 1).isLt
  obtain ⟨t, ht⟩ : ∃ t : Fin cfg0.N, t.val = (i 0).val / 2000 := ⟨⟨(i 0).val / 2000, by omega⟩, rfl⟩
  obtain ⟨-, -, -, -, -, -, -, -, -, -, e0, e1⟩ := tile_index0 t
  refine ⟨t, flush0_5 t, ?_⟩
  rw [mem_tile0]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- The hidden layer's array after the pass is the layer's result of the arrays the pass started from. -/
theorem region0_final (c : Dev nD) :
    (dat0 (F := Ideal) V c).arrAt 5 cfg0.N
      = Cert.Sage.hidden (V c main_v22) (V c main_arg0) (V c main_arg2) (V c main_arg3) (V c main_v23) :=
  (dat0 V c).arrAt_eq_of_cover 5 _ (fun t _ => written0 V c t) covered0

end Cert.KernelIdeal.RegionValue
end
-- ==== Proof.RegionValue1.lean ====
/-
  The output layer's array after its row-tiled pass, for any contents the pass starts from.

  The pass visits 50 row tiles of 2000 rows. At tile `t` it reads rows `2000 t … 2000 t + 1999` of the aggregated
  features and of the hidden features, the two weight matrices and the bias row whole, and writes rows
  `2000 t … 2000 t + 1999` of the result. Entry `(p, q)` of what a tile writes is the two sums over the 128 shared
  coordinates of row `p` of the tile's feature rows against column `q` of the weights, the bias row's entry `q` added
  last: entry `(2000 t + p, q)` of the layer's result, since row `r` of a product reads row `r` of its left operand
  only. Every row `r` lies in the tile `r / 2000`, so the result array ends holding the layer's result everywhere.
-/
import proofs.«182171_j33148557591078_1_alg».proof.Proof.Gen.KernelIdeal.Frame
import proofs.«182171_j33148557591078_1_alg».proof.Proof.Spec
import proofs.«182171_j33148557591078_1_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offsets, however spelt. -/
theorem zero_off1 : (![0, 0] : Fin 2 → Nat) = fun _ => 0 := funext fun a => by fin_cases a <;> rfl

/-- Where each window's block sits at tile `t`: the row-tiled windows at block row `t`, the weights and the bias row at
    their one block (decided over the 50 tiles). -/
theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The aggregated features' block at tile `t` is rows `2000 t …` of the array. -/
theorem mean_block1 (c : Dev nD) (t : Fin cfg1.N) (p : Fin 2000) (k : Fin 128) (r : Fin 100000)
    (hr : r.val = t.val * 2000 + p.val) :
    (iblk1 V c 0 t : Vec Ideal S2000x128 .f32) (ix2 p k) = (V c main_v37 : S100000x128.Idx → EReal) (ix2 r k) := by
  have e0 := (tile_index1 t).1
  have e1 := (tile_index1 t).2.1
  unfold iblk1
  rw [View.read_apply]
  show V c main_v37 _ = V c main_v37 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The hidden features' block at tile `t` is rows `2000 t …` of the array. -/
theorem hidden_block1 (c : Dev nD) (t : Fin cfg1.N) (p : Fin 2000) (k : Fin 128) (r : Fin 100000)
    (hr : r.val = t.val * 2000 + p.val) :
    (iblk1 V c 1 t : Vec Ideal S2000x128 .f32) (ix2 p k) = (V c main_v24 : S100000x128.Idx → EReal) (ix2 r k) := by
  have e0 := (tile_index1 t).2.2.1
  have e1 := (tile_index1 t).2.2.2.1
  unfold iblk1
  rw [View.read_apply]
  show V c main_v24 _ = V c main_v24 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The first weight matrix's block is the matrix, at every tile. -/
theorem wl_block1 (c : Dev nD) (t : Fin cfg1.N) (y : S128x64.Idx) :
    (iblk1 V c 2 t : Vec Ideal S128x64 .f32) y = (V c main_arg5 : S128x64.Idx → EReal) y := by
  have e0 := (tile_index1 t).2.2.2.2.1
  have e1 := (tile_index1 t).2.2.2.2.2.1
  unfold iblk1
  rw [View.read_apply]
  show V c main_arg5 _ = V c main_arg5 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- The second weight matrix's block is the matrix, at every tile. -/
theorem wr_block1 (c : Dev nD) (t : Fin cfg1.N) (y : S128x64.Idx) :
    (iblk1 V c 3 t : Vec Ideal S128x64 .f32) y = (V c main_arg6 : S128x64.Idx → EReal) y := by
  have e0 := (tile_index1 t).2.2.2.2.2.2.1
  have e1 := (tile_index1 t).2.2.2.2.2.2.2.1
  unfold iblk1
  rw [View.read_apply]
  show V c main_arg6 _ = V c main_arg6 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 64 + 1 * (y 1).val = (y 1).val; rw [e1]; omega

/-- The bias row's block is the row, at every tile. -/
theorem bias_block1 (c : Dev nD) (t : Fin cfg1.N) (y : S1x64.Idx) :
    (iblk1 V c 4 t : Vec Ideal S1x64 .f32) y = (V c main_v38 : S1x64.Idx → EReal) y := by
  have e0 := (tile_index1 t).2.2.2.2.2.2.2.2.1
  have e1 := (tile_index1 t).2.2.2.2.2.2.2.2.2.1
  unfold iblk1
  rw [View.read_apply]
  show V c main_v38 _ = V c main_v38 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Entry `(p, q)` of what tile `t` computes is entry `(2000 t + p, q)` of the layer's result. -/
theorem tile1_value (c : Dev nD) (t : Fin cfg1.N) (p : Fin 2000) (q : Fin 64) (r : Fin 100000)
    (hr : r.val = t.val * 2000 + p.val) :
    k1_pay1 (iblk1 V c 0 t) (iblk1 V c 1 t) (iblk1 V c 2 t) (iblk1 V c 3 t) (iblk1 V c 4 t) (ix2 p q)
      = Cert.Sage.output (V c main_v37) (V c main_v24) (V c main_arg5) (V c main_arg6) (V c main_v38) (ix2 r q) := by
  refine (pay1_apply (iblk1 V c 0 t) (iblk1 V c 1 t) (iblk1 V c 2 t) (iblk1 V c 3 t) (iblk1 V c 4 t) p q).trans ?_
  refine Eq.trans ?_ (Cert.Sage.output_apply _ _ _ _ _ r q).symm
  unfold Cert.Sage.combineAt
  refine congrArg₂ (· + ·) (congrArg₂ (· + ·)
    (Finset.sum_congr rfl fun k _ => ?_) (Finset.sum_congr rfl fun k _ => ?_)) ?_
  · exact congrArg₂ (· * ·) (mean_block1 V c t p k r hr) (wl_block1 V c t (ix2 k q))
  · exact congrArg₂ (· * ·) (hidden_block1 V c t p k r hr) (wr_block1 V c t (ix2 k q))
  · exact bias_block1 V c t (ix2 0 q)

/-- What tile `t` writes back is block `t` of the layer's result. -/
theorem written1 (c : Dev nD) (t : Fin cfg1.N) :
    (dat1 V c).flushed 5 t = ((cfg1.win 5).blk t).view.read (Elt Ideal)
      (Cert.Sage.output (V c main_v37) (V c main_v24) (V c main_arg5) (V c main_arg6) (V c main_v38)) := by
  show (cfg1.win 5).cut (grid1.coords t) ((dat1 V c).after 5 t) = _
  rw [after1_5]
  unfold out1_5
  rw [View.canon_unit_zero zero_off1]
  simp only [View.ld_unit_zero (S := S2000x128) zero_off1, View.ld_unit_zero (S := S128x64) zero_off1,
    View.ld_unit_zero (S := S1x64) zero_off1]
  obtain ⟨-, -, -, -, -, -, -, -, -, -, e0, e1⟩ := tile_index1 t
  funext j
  have hj0 : (j 0).val < 2000 := (j 0).isLt
  have hj1 : (j 1).val < 64 := (j 1).isLt
  have hN : cfg1.N = 50 := N_1
  have ht : t.val < cfg1.N := t.isLt
  have hx : (cfg1.win 5).xinj (grid1.coords t) j = ix2 (⟨(j 0).val, hj0⟩ : Fin 2000) (⟨(j 1).val, hj1⟩ : Fin 64) :=
    funext fun a => by match a with | ⟨0, _⟩ => rfl | ⟨1, _⟩ => rfl
  have hemb : ((cfg1.win 5).blk t).view.emb j
      = ix2 (⟨t.val * 2000 + (j 0).val, by omega⟩ : Fin 100000) (⟨(j 1).val, hj1⟩ : Fin 64) := by
    funext a
    apply Fin.ext
    match a with
    | ⟨0, _⟩ => show win1_5.index t (0 : Fin 2) * 2000 + 1 * (j 0).val = t.val * 2000 + (j 0).val; rw [e0]; omega
    | ⟨1, _⟩ => show win1_5.index t (1 : Fin 2) * 64 + 1 * (j 1).val = (j 1).val; rw [e1]; omega
  show k1_pay1 (iblk1 V c 0 t) (iblk1 V c 1 t) (iblk1 V c 2 t) (iblk1 V c 3 t) (iblk1 V c 4 t)
      ((cfg1.win 5).xinj (grid1.coords t) j)
    = Cert.Sage.output (V c main_v37) (V c main_v24) (V c main_arg5) (V c main_arg6) (V c main_v38)
      (((cfg1.win 5).blk t).view.emb j)
  rw [hx, hemb]
  exact tile1_value V c t _ _ _ rfl

/-- An index of the result array is in tile `t`'s block iff each coordinate is in the block's range on its axis. -/
theorem mem_tile1 (t : Fin cfg1.N) (i : S100000x64.Idx) :
    i ∈ ((cfg1.win 5).blk t).view.set
      ↔ ∀ a : Fin 2, win1_5.index t a * S2000x64.size a ≤ (i a).val
          ∧ (i a).val < win1_5.index t a * S2000x64.size a + S2000x64.size a := by
  show i ∈ ((View.whole main_v39).slice (win1_5.rect t)).set ↔ _
  rw [View.set_slice_whole, Rect.mem_set_unit]
  exact Iff.rfl

/-- Every entry of the result array is written: row `r` by the tile `r / 2000`. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, -, -, -, -, -, e0, e1⟩ := tile_index1 t
  refine ⟨t, flush1_5 t, ?_⟩
  rw [mem_tile1]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 64 ≤ (i 1).val ∧ (i 1).val < win1_5.index t (1 : Fin 2) * 64 + 64
    rw [e1]; omega

/-- The result array after the pass is the output layer of the arrays the pass started from. -/
theorem region1_final (c : Dev nD) :
    (dat1 (F := Ideal) V c).arrAt 5 cfg1.N
      = Cert.Sage.output (V c main_v37) (V c main_v24) (V c main_arg5) (V c main_arg6) (V c main_v38) :=
  (dat1 V c).arrAt_eq_of_cover 5 _ (fun t _ => written1 V c t) covered1

end Cert.KernelIdeal.RegionValue

end
-- ==== Proof.KernelValue.lean ====
/-
  What the kernel program's result buffer holds at the end, as a function of the launch contents.

  The second pipeline's output array ends at the output layer's entries of its operands; its operands at entry are the
  neighbour mean of the first pipeline's output and that output itself, the second layer's weights, and its bias as one
  row; the first pipeline's output array ends at the hidden layer's entries of ITS operands at entry, which are the
  neighbour mean of the features, the features, the first layer's weights and its bias as one row. The edge rows and
  the node divisors are computed once, before the first pipeline, and pass through it untouched.
-/
import proofs.«182171_j33148557591078_1_alg».proof.Proof.Gen.KernelIdeal.Frame
import proofs.«182171_j33148557591078_1_alg».proof.Proof.Spec
import proofs.«182171_j33148557591078_1_alg».proof.Proof.KernelHost
import proofs.«182171_j33148557591078_1_alg».proof.Proof.RegionValue0
import proofs.«182171_j33148557591078_1_alg».proof.Proof.RegionValue1
import Idealize.ShloMosaic.Lib.Pipeline.Value

set_option maxRecDepth 16384

noncomputable section

namespace Cert.KernelIdeal.ResultValue

open Cert.KernelIdeal Cert.KernelIdeal.Facts₀ Cert.KernelIdeal.HostChain
open Idealize.ShloMosaic Idealize.ShloMosaic.TcCoe Idealize.SL.Sem

variable (m : (ℓ : Loc nD τ sig) → Buf (Elt Ideal) ℓ) (ρ : Dev nD → PrngReg)

/-- The hidden rows as a function of the launch contents: the first dense step of the neighbours' mean and the nodes' own rows. -/
def hiddenOf (c : Dev nD) : S100000x128.Idx → EReal :=
  Cert.Sage.hidden
    (meanOf (F := Ideal) (m ((c.tc : Thread nD τ).loc main_arg0)) (srcOf (m ((c.tc : Thread nD τ).loc main_arg1))) (dstOf (m ((c.tc : Thread nD τ).loc main_arg1)))
      (degOf (F := Ideal) (dstOf (m ((c.tc : Thread nD τ).loc main_arg1)))))
    (m ((c.tc : Thread nD τ).loc main_arg0)) (m ((c.tc : Thread nD τ).loc main_arg2)) (m ((c.tc : Thread nD τ).loc main_arg3))
    (shapeCast S1x128 (m ((c.tc : Thread nD τ).loc main_arg4)) shapeCasts_S128_S1x128)

/-- What the first pipeline leaves in its output array: the hidden rows. -/
theorem hidden_value (c : Dev nD) : Gen.W2 m ρ c (Proc.devRef .tc main_v24) = hiddenOf m c := by
  refine (Gen.W2_arr m ρ c 5).trans ?_
  refine (RegionValue.region0_final (Gen.V1 m ρ) c).trans ?_
  have e0 : Gen.V1 m ρ c main_v22 = _ := entry0_mean m ρ c
  have e1 : Gen.V1 m ρ c main_arg0 = _ := entry0_arg0 m ρ c
  have e2 : Gen.V1 m ρ c main_arg2 = _ := entry0_arg2 m ρ c
  have e3 : Gen.V1 m ρ c main_arg3 = _ := entry0_arg3 m ρ c
  have e4 : Gen.V1 m ρ c main_v23 = _ := entry0_bias m ρ c
  rw [e0, e1, e2, e3, e4]
  rfl

/-- What the program's result buffer holds at the last boundary: the second dense step of the hidden rows' neighbour mean
    and the hidden rows. -/
theorem result_value (c : Dev nD) : Gen.W4 m ρ c (Proc.devRef .tc main_v39)
    = Cert.Sage.output
        (meanOf (F := Ideal) (hiddenOf m c) (srcOf (m ((c.tc : Thread nD τ).loc main_arg1))) (dstOf (m ((c.tc : Thread nD τ).loc main_arg1)))
          (degOf (F := Ideal) (dstOf (m ((c.tc : Thread nD τ).loc main_arg1)))))
        (hiddenOf m c) (m ((c.tc : Thread nD τ).loc main_arg5)) (m ((c.tc : Thread nD τ).loc main_arg6))
        (shapeCast S1x64 (m ((c.tc : Thread nD τ).loc main_arg7)) shapeCasts_S64_S1x64) := by
  refine (Gen.W4_arr m ρ c 5).trans ?_
  refine (RegionValue.region1_final (Gen.V3 m ρ) c).trans ?_
  have e0 : Gen.V3 m ρ c main_v37 = _ := (entry1_mean m ρ c).trans (by rw [hidden_value, mid_src, mid_dst, mid_deg])
  have e1 : Gen.V3 m ρ c main_v24 = _ := (entry1_hidden m ρ c).trans (hidden_value m ρ c)
  have e2 : Gen.V3 m ρ c main_arg5 = _ := (entry1_arg5 m ρ c).trans (mid_arg5 m ρ c)
  have e3 : Gen.V3 m ρ c main_arg6 = _ := (entry1_arg6 m ρ c).trans (mid_arg6 m ρ c)
  have e4 : Gen.V3 m ρ c main_v38 = _ := (entry1_bias m ρ c).trans (by rw [mid_arg7])
  rw [e0, e1, e2, e3, e4]

end Cert.KernelIdeal.ResultValue

end
-- ==== Proof.RefHost.lean ====
/-
  The reference program's result as nested functions.

  The reference computes, per layer, the mean of the neighbours' feature rows (the edge list split into source and
  target rows, the rows gathered per edge, added into the target's row, divided by the node's count of incoming edges,
  at least one), then the two products, their sum, the bias, and after the first layer the clamp at zero. Its run ends
  with the result buffer at one long composed term; here that term is the second layer's dense step applied to the mean
  of the first layer's hidden rows, each piece a named function, by unfolding alone.
-/
import proofs.«182171_j33148557591078_1_alg».proof.Proof.Gen.ReferenceIdeal.Run

set_option maxRecDepth 16384

noncomputable section

namespace Cert.ReferenceIdeal.HostChain

open Cert.ReferenceIdeal Cert.ReferenceIdeal.Facts₀
open Idealize.ShloMosaic Idealize.ShloMosaic.TcCoe Idealize.SL.Sem

variable {F : FTy → Type} [FloatOps F]

/-- The edge list's first row: the source node of every edge. -/
def srcOf (ei : IVec S2x1600000 32) : IVec S1600000 32 :=
  shapeCast _ (extractStridedSlice S1x1600000 ![0, 0] ei slices_S2x1600000_S1x1600000_0_0) shapeCasts_S1x1600000_S1600000

/-- The edge list's second row: the target node of every edge. -/
def dstOf (ei : IVec S2x1600000 32) : IVec S1600000 32 :=
  shapeCast _ (extractStridedSlice S1x1600000 ![1, 0] ei slices_S2x1600000_S1x1600000_1_0) shapeCasts_S1x1600000_S1600000

/-- A node's divisor: the number of edges that end at it (a one added into it per such edge), and at least one. -/
def degOf (dst : IVec S1600000 32) : FVec F S100000 .f32 :=
  maximumf (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))) (broadcastInDim S100000 ![] bcast_S_S100000 (constant S_ .f32 0x3F800000#32))

/-- The mean over a node's incoming edges of the source nodes' feature rows: the rows gathered per edge (a negative
    source index counted from the end), added into the target's row, and the row divided by the node's divisor. -/
def meanOf (feat : FVec F S100000x128 .f32) (src dst : IVec S1600000 32) (deg : FVec F S100000 .f32) : FVec F S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 feat (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 deg))

/-- The first layer's dense step on the host: the two products, their sum, the bias row over every node, the clamp at zero. -/
def denseHidden (M X : FVec F S100000x128 .f32) (Wl Wr : FVec F S128x128 .f32) (b : FVec F S128 .f32) : FVec F S100000x128 .f32 :=
  maximumf (addf (addf (Host.dotGeneral dot_S100000x128_S128x128_S100000x128_1_0_0_1_n_n none M Wl) (Host.dotGeneral dot_S100000x128_S128x128_S100000x128_1_0_0_1_n_n none X Wr)) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The second layer's dense step on the host: the two products, their sum, the bias row over every node. -/
def denseOutput (M X : FVec F S100000x128 .f32) (Wl Wr : FVec F S128x64 .f32) (b : FVec F S64 .f32) : FVec F S100000x64 .f32 :=
  addf (addf (Host.dotGeneral dot_S100000x128_S128x64_S100000x64_1_0_0_1_n_n none M Wl) (Host.dotGeneral dot_S100000x128_S128x64_S100000x64_1_0_0_1_n_n none X Wr)) (broadcastInDim S100000x64 ![0, 1] bcast_S1x64_S100000x64_0_1 (broadcastInDim S1x64 ![1] bcast_S64_S1x64_1 b))

/-- The whole network on the host, from the argument arrays. -/
def network (x : FVec F S100000x128 .f32) (ei : IVec S2x1600000 32) (W1l W1r : FVec F S128x128 .f32) (b1 : FVec F S128 .f32)
    (W2l W2r : FVec F S128x64 .f32) (b2 : FVec F S64 .f32) : FVec F S100000x64 .f32 :=
  denseOutput
    (meanOf (denseHidden (meanOf x (srcOf ei) (dstOf ei) (degOf (dstOf ei))) x W1l W1r b1) (srcOf ei) (dstOf ei) (degOf (dstOf ei)))
    (denseHidden (meanOf x (srcOf ei) (dstOf ei) (degOf (dstOf ei))) x W1l W1r b1) W2l W2r b2

/-- The run's composed term is the network of the launch contents of the arguments. -/
theorem result_eq (m : (ℓ : Loc nD τ sig) → Buf (Elt F) ℓ) (c : Dev nD) :
    Cert.ReferenceIdeal.Value.res_main_v58 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v58 network denseOutput denseHidden meanOf degOf srcOf dstOf
  rfl

end Cert.ReferenceIdeal.HostChain

end
-- ==== Proof.RefLayers.lean ====
/-
  The reference's dense step, entry by entry.

  The reference computes a layer's dense step on whole arrays: the general contraction of the aggregated features
  with the left weights, plus the contraction of the node's own features with the right weights, plus the bias
  vector laid out as a row and repeated down the 100000 rows; the hidden layer then takes the maximum with an
  array filled with the zero word. Read at an entry `(r, j)` each contraction is the sum over the 128 shared
  coordinates, the repeated bias row has the bias vector's entry `j`, and the zero array has the zero word:
  this is the entry the specification states.
-/
import proofs.«182171_j33148557591078_1_alg».proof.Proof.Gen.ReferenceIdeal
import proofs.«182171_j33148557591078_1_alg».proof.Proof.Spec
import proofs.«182171_j33148557591078_1_alg».proof.Proof.LibMatmul
import Idealize.ShloMosaic.PureOps.Ideal
import Idealize.ShloMosaic.Lib.Pipeline.Value

open scoped BigOperators

noncomputable section

namespace Cert.ReferenceIdeal.Layers

open Cert.ReferenceIdeal Cert.ReferenceIdeal.Facts₀ Idealize.ShloMosaic Idealize.ShloMosaic.ValueIdx

/-- A vector `[O]` laid out as a row `[1, O]` and repeated down `R` rows has at `(r, j)` the vector's entry `j`
    (for `O ≠ 1`: an axis of extent one would be read at coordinate zero, which is the same entry, but is a
    different case of the broadcast's index rule). -/
theorem biasRows_apply {R O : Nat} (hO : O ≠ 1)
    (h1 : (⟨1, ![O]⟩ : Shape).BroadcastsInDim ⟨2, ![1, O]⟩ ![1])
    (h2 : (⟨2, ![1, O]⟩ : Shape).BroadcastsInDim ⟨2, ![R, O]⟩ ![0, 1])
    (b : (⟨1, ![O]⟩ : Shape).Idx → EReal) (r : Fin R) (j : Fin O) :
    broadcastInDim ⟨2, ![R, O]⟩ ![0, 1] h2 (broadcastInDim ⟨2, ![1, O]⟩ ![1] h1 b) (ix2 r j) = b (ix1 j) := by
  refine (broadcastInDim_apply _ h2 _ (ix2 r j) (ix2 (0 : Fin 1) j) (fun a => match a with
    | ⟨0, _⟩ => by show 0 = if (1 : Nat) = 1 then 0 else r.val; rw [if_pos rfl]
    | ⟨1, _⟩ => by show j.val = if O = 1 then 0 else j.val; rw [if_neg hO])).trans ?_
  exact broadcastInDim_apply _ h1 b (ix2 (0 : Fin 1) j) (ix1 j) (fun a => match a with
    | ⟨0, _⟩ => by show j.val = if O = 1 then 0 else j.val; rw [if_neg hO])

/-- The scalar zero word repeated over a whole array has the zero word at every entry. -/
theorem zeros_apply {s : Shape} (h : (⟨0, ![]⟩ : Shape).BroadcastsInDim s ![]) (i : s.Idx) :
    broadcastInDim s ![] h (constant (F := Ideal) ⟨0, ![]⟩ .f32 0x00000000#32) i = Ideal.ofBits .f32 0x00000000#32 :=
  (broadcastInDim_apply _ h _ i ix0 (fun a => a.elim0)).trans (constant_apply _ _)

theorem hidden_eq (M X : FVec Ideal S100000x128 .f32) (Wl Wr : FVec Ideal S128x128 .f32) (b : FVec Ideal S128 .f32) :
    maximumf (addf (addf (Host.dotGeneral (F := Ideal) dot_S100000x128_S128x128_S100000x128_1_0_0_1_n_n none M Wl)
        (Host.dotGeneral (F := Ideal) dot_S100000x128_S128x128_S100000x128_1_0_0_1_n_n none X Wr))
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = Cert.Sage.hidden M X Wl Wr (Cert.Sage.rowOf b) := by
  funext i
  obtain ⟨r, j, rfl⟩ : ∃ (r : Fin 100000) (j : Fin 128), i = ix2 r j := ⟨i 0, i 1, eq_ix2 i⟩
  rw [Cert.Sage.hidden_apply, maximumf_apply, addf_apply, addf_apply]
  unfold Cert.Sage.combineAt
  rw [Cert.Sage.rowOf_apply, zeros_apply bcast_S_S100000x128,
    biasRows_apply (by decide) bcast_S128_S1x128_1 bcast_S1x128_S100000x128_0_1 b r j]
  have hd : dot_S100000x128_S128x128_S100000x128_1_0_0_1_n_n = DotDims.plain 100000 128 128 := rfl
  rw [hd, Cert.MatOps.dotGeneral_plain_apply none M Wl r j, Cert.MatOps.dotGeneral_plain_apply none X Wr r j]

theorem output_eq (M X : FVec Ideal S100000x128 .f32) (Wl Wr : FVec Ideal S128x64 .f32) (b : FVec Ideal S64 .f32) :
    addf (addf (Host.dotGeneral (F := Ideal) dot_S100000x128_S128x64_S100000x64_1_0_0_1_n_n none M Wl)
        (Host.dotGeneral (F := Ideal) dot_S100000x128_S128x64_S100000x64_1_0_0_1_n_n none X Wr))
      (broadcastInDim S100000x64 ![0, 1] bcast_S1x64_S100000x64_0_1 (broadcastInDim S1x64 ![1] bcast_S64_S1x64_1 b))
    = Cert.Sage.output M X Wl Wr (Cert.Sage.rowOf b) := by
  funext i
  obtain ⟨r, j, rfl⟩ : ∃ (r : Fin 100000) (j : Fin 64), i = ix2 r j := ⟨i 0, i 1, eq_ix2 i⟩
  rw [Cert.Sage.output_apply, addf_apply, addf_apply]
  unfold Cert.Sage.combineAt
  rw [Cert.Sage.rowOf_apply,
    biasRows_apply (by decide) bcast_S64_S1x64_1 bcast_S1x64_S100000x64_0_1 b r j]
  have hd : dot_S100000x128_S128x64_S100000x64_1_0_0_1_n_n = DotDims.plain 100000 128 64 := rfl
  rw [hd, Cert.MatOps.dotGeneral_plain_apply none M Wl r j, Cert.MatOps.dotGeneral_plain_apply none X Wr r j]

end Cert.ReferenceIdeal.Layers

end
-- ==== Proof.Bridge.lean ====
/-
  The two programs' host functions are the same functions, and the reference's network is the dense steps' entries.

  The kernel program and the reference are printed from two modules, so each has its own copy of every shape, of every
  gather and scatter-add description and of every side condition; the copies are equal field by field. Hence the edge
  rows, the node divisors and the neighbour mean named on the kernel's side are the functions named on the reference's
  side. A bias vector reshaped to one row, as the kernel's host code passes it, is the row the reference broadcasts.
  And the reference's network, its two dense steps read entry by entry, is: the output layer's entry of the mean of the
  hidden rows and the hidden rows, the hidden rows being the hidden layer's entry of the mean of the features and the
  features.
-/
import proofs.«182171_j33148557591078_1_alg».proof.Proof.KernelHost
import proofs.«182171_j33148557591078_1_alg».proof.Proof.RefHost
import proofs.«182171_j33148557591078_1_alg».proof.Proof.RefLayers
import proofs.«182171_j33148557591078_1_alg».proof.Proof.Spec
import Idealize.ShloMosaic.Lib.Pipeline.Value
import Idealize.ShloMosaic.Lib.ValueLayout

noncomputable section

namespace Cert.Bridge

open Idealize.ShloMosaic Idealize.ShloMosaic.ValueIdx

/-! ## One function under two names -/

theorem src_eq (ei : IVec Cert.KernelIdeal.S2x1600000 32) :
    Cert.KernelIdeal.HostChain.srcOf ei = Cert.ReferenceIdeal.HostChain.srcOf ei := rfl

theorem dst_eq (ei : IVec Cert.KernelIdeal.S2x1600000 32) :
    Cert.KernelIdeal.HostChain.dstOf ei = Cert.ReferenceIdeal.HostChain.dstOf ei := rfl

theorem deg_eq (dst : IVec Cert.KernelIdeal.S1600000 32) :
    Cert.KernelIdeal.HostChain.degOf (F := Ideal) dst = Cert.ReferenceIdeal.HostChain.degOf (F := Ideal) dst := rfl

theorem mean_eq (feat : FVec Ideal Cert.KernelIdeal.S100000x128 .f32) (src dst : IVec Cert.KernelIdeal.S1600000 32)
    (deg : FVec Ideal Cert.KernelIdeal.S100000 .f32) :
    Cert.KernelIdeal.HostChain.meanOf (F := Ideal) feat src dst deg = Cert.ReferenceIdeal.HostChain.meanOf (F := Ideal) feat src dst deg := rfl

/-! ## A bias vector as one row -/

theorem biasRow128 (b : FVec Ideal Cert.KernelIdeal.S128 .f32) :
    shapeCast Cert.KernelIdeal.S1x128 b Cert.KernelIdeal.Facts₀.shapeCasts_S128_S1x128 = Cert.Sage.rowOf b := by
  funext i
  obtain ⟨z, j, rfl⟩ : ∃ (z : Fin 1) (j : Fin 128), i = ix2 z j := ⟨i 0, i 1, eq_ix2 i⟩
  rw [Cert.Sage.rowOf_apply]
  exact shapeCast_a_1a_apply b _ z j

theorem biasRow64 (b : FVec Ideal Cert.KernelIdeal.S64 .f32) :
    shapeCast Cert.KernelIdeal.S1x64 b Cert.KernelIdeal.Facts₀.shapeCasts_S64_S1x64 = Cert.Sage.rowOf b := by
  funext i
  obtain ⟨z, j, rfl⟩ : ∃ (z : Fin 1) (j : Fin 64), i = ix2 z j := ⟨i 0, i 1, eq_ix2 i⟩
  rw [Cert.Sage.rowOf_apply]
  exact shapeCast_a_1a_apply b _ z j

/-! ## The network, entry by entry -/

open Cert.ReferenceIdeal Cert.ReferenceIdeal.HostChain in
/-- The network as the two layers' entries: what both programs' results are compared against. -/
def netSpec (x : FVec Ideal S100000x128 .f32) (ei : IVec S2x1600000 32) (W1l W1r : FVec Ideal S128x128 .f32) (b1 : FVec Ideal S128 .f32)
    (W2l W2r : FVec Ideal S128x64 .f32) (b2 : FVec Ideal S64 .f32) : FVec Ideal S100000x64 .f32 :=
  Cert.Sage.output
    (meanOf (F := Ideal) (Cert.Sage.hidden (meanOf (F := Ideal) x (srcOf ei) (dstOf ei) (degOf (F := Ideal) (dstOf ei))) x W1l W1r (Cert.Sage.rowOf b1))
      (srcOf ei) (dstOf ei) (degOf (F := Ideal) (dstOf ei)))
    (Cert.Sage.hidden (meanOf (F := Ideal) x (srcOf ei) (dstOf ei) (degOf (F := Ideal) (dstOf ei))) x W1l W1r (Cert.Sage.rowOf b1))
    W2l W2r (Cert.Sage.rowOf b2)

open Cert.ReferenceIdeal Cert.ReferenceIdeal.HostChain in
theorem denseHidden_eq (M X : FVec Ideal S100000x128 .f32) (Wl Wr : FVec Ideal S128x128 .f32) (b : FVec Ideal S128 .f32) :
    denseHidden (F := Ideal) M X Wl Wr b = Cert.Sage.hidden M X Wl Wr (Cert.Sage.rowOf b) :=
  Cert.ReferenceIdeal.Layers.hidden_eq M X Wl Wr b

open Cert.ReferenceIdeal Cert.ReferenceIdeal.HostChain in
theorem denseOutput_eq (M X : FVec Ideal S100000x128 .f32) (Wl Wr : FVec Ideal S128x64 .f32) (b : FVec Ideal S64 .f32) :
    denseOutput (F := Ideal) M X Wl Wr b = Cert.Sage.output M X Wl Wr (Cert.Sage.rowOf b) :=
  Cert.ReferenceIdeal.Layers.output_eq M X Wl Wr b

open Cert.ReferenceIdeal Cert.ReferenceIdeal.HostChain in
/-- The reference's network is the two layers' entries. -/
theorem network_eq (x : FVec Ideal S100000x128 .f32) (ei : IVec S2x1600000 32) (W1l W1r : FVec Ideal S128x128 .f32) (b1 : FVec Ideal S128 .f32)
    (W2l W2r : FVec Ideal S128x64 .f32) (b2 : FVec Ideal S64 .f32) :
    network (F := Ideal) x ei W1l W1r b1 W2l W2r b2 = netSpec x ei W1l W1r b1 W2l W2r b2 := by
  unfold network netSpec
  rw [denseOutput_eq, denseHidden_eq]

end Cert.Bridge

end
-- ==== Proof.lean ====
/-
  A two-layer mean-aggregating graph network on 100000 nodes and 1600000 edges: the kernel program against its reference.

  Both programs split the edge list into source and target rows, count each node's incoming edges (at least one) and,
  per layer, take the mean over a node's incoming edges of the source nodes' rows; a layer's dense step is then
  `mean · Wl + rows · Wr + bias`, clamped at zero after the first layer. The reference does the dense steps as whole
  products on the host; the kernel program does each as a pipeline over 50 row tiles of 2000 rows, the operands rounded
  to a shorter float format on the way into the matrix unit. On the extended reals that rounding is the identity and a
  product's row tile is the same rows of the whole product, so entry by entry the two dense steps agree (`Cert.Sage`);
  the host operations around them are the same operations in both programs, and are carried as the same functions
  without being opened. The kernel rewrites nothing when idealized, so `preserves` has nothing to state; the two kernel
  frames are the generated ones, the reference's frame is its generated run with the result dropped.
-/
import proofs.«182171_j33148557591078_1_alg».proof.Defs
import proofs.«182171_j33148557591078_1_alg».proof.Proof.Gen.Kernel
import proofs.«182171_j33148557591078_1_alg».proof.Proof.Gen.Kernel.Frame
import proofs.«182171_j33148557591078_1_alg».proof.Proof.Gen.KernelIdeal
import proofs.«182171_j33148557591078_1_alg».proof.Proof.Gen.KernelIdeal.Frame
import proofs.«182171_j33148557591078_1_alg».proof.Proof.Gen.ReferenceIdeal
import proofs.«182171_j33148557591078_1_alg».proof.Proof.Gen.ReferenceIdeal.Run
import proofs.«182171_j33148557591078_1_alg».proof.Proof.Gen.Pre_finite_inputs
import proofs.«182171_j33148557591078_1_alg».proof.Proof.KernelRun
import proofs.«182171_j33148557591078_1_alg».proof.Proof.KernelValue
import proofs.«182171_j33148557591078_1_alg».proof.Proof.RefHost
import proofs.«182171_j33148557591078_1_alg».proof.Proof.Bridge
import Idealize.ShloMosaic.Adequacy
import Idealize.ShloMosaic.Init

noncomputable section

namespace Cert.Proof

open Idealize.ShloMosaic Idealize.ShloMosaic.TcCoe Idealize.SL.Sem

/-- What the kernel program's result buffer holds at the end is the network's entries of the launch contents. -/
theorem kernel_net (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v39)
      = Cert.Bridge.netSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.ResultValue.result_value]
  unfold Cert.KernelIdeal.ResultValue.hiddenOf Cert.Bridge.netSpec
  rw [Cert.Bridge.biasRow128, Cert.Bridge.biasRow64]
  rfl

/-- What the reference's result buffer holds at the end is the network's entries of the launch contents. -/
theorem reference_net (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 m c
      = Cert.Bridge.netSpec (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) :=
  (Cert.ReferenceIdeal.HostChain.result_eq m c).trans (Cert.Bridge.network_eq _ _ _ _ _ _ _ _)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's entries of the arguments, which agree. -/
theorem algebraic : Cert.algebraic_KernelIdeal_ReferenceIdeal := by
  intro m ρ m' ρ' _ hagree
  refine ⟨fun c => Cert.Bridge.netSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_net m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [reference_net m' c, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
